-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S100000x1 : Shape := ⟨2, ![100000, 1]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S100000x1 : S_.BroadcastsInDim S100000x1 (![] : Fin 0 → Fin S100000x1.rank)
  reducesTo_S100000x1_S_d0_1 : S100000x1.ReducesTo [0, 1] S_

variable [Facts]

def fn_part1 {F : FTy → Type} [FloatOps F] (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  main_v18

def fn {F : FTy → Type} [FloatOps F] (main_arg0 : FVec F S100000x64 .f32) (main_arg1 : FVec F S64x64 .f32) (main_arg2 : FVec F S64x64 .f32) (main_arg3 : FVec F S100000x1 .f32) (main_arg4 : IVec S1600000 32) (main_arg5 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S100000x1 .f32 := Host.absf main_arg3
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_v13 main_v16
-- ==== Kernel.lean ====
abbrev S100000x64 : Shape := ⟨2, ![100000, 64]⟩
abbrev S64x64 : Shape := ⟨2, ![64, 64]⟩
abbrev S100000x1 : Shape := ⟨2, ![100000, 1]⟩
abbrev S1600000 : Shape := ⟨1, ![1600000]⟩
abbrev S64x128 : Shape := ⟨2, ![64, 128]⟩
abbrev S100000x128 : Shape := ⟨2, ![100000, 128]⟩
abbrev S5000x64 : Shape := ⟨2, ![5000, 64]⟩
abbrev S5000x128 : Shape := ⟨2, ![5000, 128]⟩
abbrev S_ : Shape := ⟨0, ![]⟩
abbrev S1600000x1 : Shape := ⟨2, ![1600000, 1]⟩
abbrev S1600000x64 : Shape := ⟨2, ![1600000, 64]⟩
abbrev S5000x1 : Shape := ⟨2, ![5000, 1]⟩

abbrev nBuf : Space → Nat
  | .hbm => 24
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64x64, .f32⟩
  | .hbm, ⟨3, _⟩ => ⟨S100000x1, .f32⟩
  | .hbm, ⟨4, _⟩ => ⟨S1600000, .i32⟩
  | .hbm, ⟨5, _⟩ => ⟨S1600000, .i32⟩
  | .hbm, ⟨6, _⟩ => ⟨S64x128, .f32⟩
  | .hbm, ⟨7, _⟩ => ⟨S100000x128, .f32⟩
  | .hbm, ⟨8, _⟩ => ⟨S100000x64, .f32⟩
  | .hbm, ⟨9, _⟩ => ⟨S100000x64, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x64, .f32⟩
  | .local _ .vmem, ⟨6, _⟩ => ⟨S5000x64, .f32⟩
  | .local _ .vmem, ⟨7, _⟩ => ⟨S5000x1, .f32⟩
  | .local _ .vmem, ⟨8, _⟩ => ⟨S5000x1, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S64x64_S64x64_S64x128_d1 : Shape.Concatenates [S64x64, S64x64] S64x128 1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x128_S5000x128_0_0 : ∀ a, (![0, 0] : Fin 2 → Nat) a + S5000x128.size a ≤ S5000x128.size a
  h_S5000x128 : 0 < S5000x128.numel
  slices_S100000x128_S100000x64_0_0 : S100000x128.Slices ![0, 0] S100000x64
  slices_S100000x128_S100000x64_0_64 : S100000x128.Slices ![0, 64] S100000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  broadcasts_S5000x1_S5000x64 : S5000x1.Broadcasts S5000x64
  dot_S5000x64_S64x128_S5000x128_1_0_0_1_n_n_wf : DotDims.WF S5000x64 S64x128 S5000x128 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S100000x1 : Shape := ⟨2, ![100000, 1]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 24
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64x64, .f32⟩
  | .hbm, ⟨3, _⟩ => ⟨S100000x1, .f32⟩
  | .hbm, ⟨4, _⟩ => ⟨S1600000, .i32⟩
  | .hbm, ⟨5, _⟩ => ⟨S1600000, .i32⟩
  | .hbm, ⟨6, _⟩ => ⟨S100000x64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S100000x64, .f32⟩
  | .hbm, ⟨21, _⟩ => ⟨S100000x64, .f32⟩
  | .hbm, ⟨22, _⟩ => ⟨S100000x64, .f32⟩
  | .hbm, ⟨23, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The fused program's run with its result array named. The program runs four segments in order: a host stretch
  that joins the two weight matrices side by side, the first on-chip region (the row tiles of the product with
  the joined weights), a host stretch (the two column halves cut out, the edge gather and the segment sum), and
  the second on-chip region (divide by the degree column, add the residual half). At the end every array the
  program keeps holds what the last segment boundary's contents say; so the result array holds those contents
  at its own buffer, and each argument is as launched.
-/
import proofs.«104487_j66907000537770_2_alg».proof.Defs
import proofs.«104487_j66907000537770_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result array at the last boundary's contents of its buffer and the
    six arguments unchanged. -/
theorem run_last : θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v14 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Hand

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Gemm.lean ====
/-
  The first on-chip region, read as a value. Its grid has twenty points; point t loads rows 5000·t … 5000·t + 4999
  of the left matrix (all 64 columns) and the whole 64 × 128 right matrix, and writes back the 5000 × 128 tile of
  their product. Over the extended reals the narrowing of both operands before the product is the identity and the
  accumulator starts at zero, so entry (p, q) of the tile is the sum over k of left (p, k) times right (k, q); the
  twenty tiles fill the 100000 × 128 result, which therefore holds the product of the two arrays the region found.
-/
import proofs.«104487_j66907000537770_2_alg».proof.Defs
import proofs.«104487_j66907000537770_2_alg».proof.Proof.Gen.KernelIdeal.Frame
import proofs.«104487_j66907000537770_2_alg».proof.Proof.LibPlainDot
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a whole-buffer access. -/
theorem hz : (![0, 0] : Fin 2 → Nat) = fun _ => 0 := funext fun a => by fin_cases a <;> rfl

/-- The product of a 100000 × 64 array with a 64 × 128 array, entry by entry. -/
def rowsTimes (X : S100000x64.Idx → EReal) (WW : S64x128.Idx → EReal) : S100000x128.Idx → EReal :=
  fun i => ∑ k : Fin 64, X (ix2 (⟨(i 0).val, idx2_lt0 i⟩ : Fin 100000) k) * WW (ix2 k (⟨(i 1).val, idx2_lt1 i⟩ : Fin 128))

/-- Entry (p, q) of the tile the body stores: the sum over k of the row block at (p, k) times the weights at (k, q). -/
theorem tile_apply (x0 : Vec Ideal S5000x64 .f32) (x1 : Vec Ideal S64x128 .f32) (p : Fin 5000) (q : Fin 128) :
    k0_pay1 (F := Ideal) x0 x1 (ix2 p q) = ∑ k : Fin 64, x0 (ix2 p k) * x1 (ix2 k q) := by
  unfold k0_pay1
  rw [shapeCast_self]
  exact Cert.PlainDot.matmul_zero_apply (M := 5000) (K := 64) (N := 128)
    dot_S5000x64_S64x128_S5000x128_1_0_0_1_n_n rfl none _ _ p q

variable (V : (c : Dev nD) → (b : Ref sig .tc) → Buf (Elt Ideal) ((c : Thread nD τ).loc b))

/-- Where the three windows' blocks sit at point t: the row-block windows at block row t (the same one), every
    other block coordinate zero, and there are twenty block rows. -/
theorem gemm_index : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point t writes back is block t of the product of the two arrays the region found. -/
theorem gemm_flushed (c : Dev nD) (t : Fin cfg0.N) :
    (dat0 V c).flushed 2 t = ((cfg0.win 2).blk t).view.read (Elt Ideal) (rowsTimes (V c main_arg0) (V c main_v0)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x128) hz]
  obtain ⟨e0, e1, e2, e3, e4, e5⟩ := gemm_index t
  funext j
  obtain ⟨p, q, rfl⟩ : ∃ (p : Fin 5000) (q : Fin 128), j = ix2 p q :=
    ⟨⟨(j 0).val, (j 0).isLt⟩, ⟨(j 1).val, (j 1).isLt⟩, funext fun a => by match a with | ⟨0, _⟩ => rfl | ⟨1, _⟩ => rfl⟩
  show k0_pay1 (F := Ideal) (iblk0 V c 0 t) (iblk0 V c 1 t) (ix2 p q)
    = rowsTimes (V c main_arg0) (V c main_v0) (((cfg0.win 2).blk t).view.emb (ix2 p q))
  refine (tile_apply (iblk0 V c 0 t) (iblk0 V c 1 t) p q).trans ?_
  unfold rowsTimes
  refine Finset.sum_congr rfl fun k _ => ?_
  have h0 : ((cfg0.win 0).blk t).view.emb (ix2 p k)
      = ix2 (⟨((((cfg0.win 2).blk t).view.emb (ix2 p q)) 0).val, idx2_lt0 _⟩ : Fin 100000) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  have h1 : ((cfg0.win 1).blk t).view.emb (ix2 k q)
      = ix2 k (⟨((((cfg0.win 2).blk t).view.emb (ix2 p q)) 1).val, idx2_lt1 _⟩ : Fin 128) := by
    funext a; apply Fin.ext
    match a with
    | ⟨0, _⟩ => show win0_1.index t (0 : Fin 2) * 64 + 1 * k.val = k.val; omega
    | ⟨1, _⟩ => show win0_1.index t (1 : Fin 2) * 128 + 1 * q.val = win0_2.index t (1 : Fin 2) * 128 + 1 * q.val; omega
  exact congrArg₂ (fun (a b : EReal) => a * b) (congrArg (V c main_arg0) h0) (congrArg (V c main_v0) h1)

/-- An entry is in point t's tile iff each coordinate is in the tile's range on its axis. -/
theorem gemm_mem (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v1).slice (win0_2.rect t)).set ↔ _
  rw [View.set_slice_whole, Rect.mem_set_unit]
  exact Iff.rfl

/-- Every entry of the 100000 × 128 array lies in the tile of the point its row falls in. -/
theorem gemm_cover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5⟩ := gemm_index t
  refine ⟨t, flush0_2 t, ?_⟩
  rw [gemm_mem]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After the region the result array holds the product of the two arrays the region found. -/
theorem gemm_final (c : Dev nD) :
    (dat0 V c).arrAt 2 cfg0.N = rowsTimes (V c main_arg0) (V c main_v0) :=
  (dat0 V c).arrAt_eq_of_cover 2 (rowsTimes (V c main_arg0) (V c main_v0)) (fun t _ => gemm_flushed V c t) gemm_cover

end Cert.KernelIdeal.Hand

end
-- ==== Proof.Combine.lean ====
/-
  The second on-chip region, read as a value. Its grid has twenty points; point t loads rows 5000·t … 5000·t + 4999
  of the aggregated array, of the degree column and of the residual array, and writes back, entry by entry, the
  aggregate divided by the degree of its row plus the residual. The twenty row blocks fill the 100000 × 64 result,
  which therefore holds that expression of the three arrays the region found, at every entry.
-/
import proofs.«104487_j66907000537770_2_alg».proof.Defs
import proofs.«104487_j66907000537770_2_alg».proof.Proof.Gen.KernelIdeal.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a whole-buffer access. -/
theorem hz' : (![0, 0] : Fin 2 → Nat) = fun _ => 0 := funext fun a => by fin_cases a <;> rfl

/-- Entry by entry: the aggregate divided by its row's degree, plus the residual. -/
def normAdd (A : S100000x64.Idx → EReal) (D : S100000x1.Idx → EReal) (B : S100000x64.Idx → EReal) : S100000x64.Idx → EReal :=
  fun i => Ideal.div (A i) (D (ix2 (⟨(i 0).val, idx2_lt0 i⟩ : Fin 100000) (0 : Fin 1))) + B i

/-- Entry (p, q) of the block the body stores. -/
theorem comb_apply (x0 : Vec Ideal S5000x64 .f32) (x1 : Vec Ideal S5000x1 .f32) (x2 : Vec Ideal S5000x64 .f32) (p : Fin 5000) (q : Fin 64) :
    k1_pay1 (F := Ideal) x0 x1 x2 (ix2 p q) = Ideal.div (x0 (ix2 p q)) (x1 (ix2 p (0 : Fin 1))) + x2 (ix2 p q) := by
  unfold k1_pay1
  rw [shapeCast_self, shapeCast_self]
  show Ideal.div (x0 (ix2 p q)) (broadcastTo S5000x64 x1 broadcasts_S5000x1_S5000x64 (ix2 p q)) + x2 (ix2 p q) = _
  rw [broadcastTo_apply x1 broadcasts_S5000x1_S5000x64 (ix2 p q) (ix2 p (0 : Fin 1)) (fun a => by
    match a with
    | ⟨0, _⟩ => show p.val = if (5000 : Nat) = 1 then 0 else p.val; rw [if_neg (by decide)]
    | ⟨1, _⟩ => show 0 = if (1 : Nat) = 1 then 0 else q.val; rw [if_pos rfl])]

variable (V : (c : Dev nD) → (b : Ref sig .tc) → Buf (Elt Ideal) ((c : Thread nD τ).loc b))

/-- Where the four windows' blocks sit at point t: all at block row t, block column zero. -/
theorem comb_index : ∀ t : Fin cfg1.N, win1_0.index t (0 : Fin 2) = win1_3.index t (0 : Fin 2)
    ∧ win1_0.index t (1 : Fin 2) = 0 ∧ win1_1.index t (0 : Fin 2) = win1_3.index t (0 : Fin 2) ∧ win1_1.index t (1 : Fin 2) = 0
    ∧ win1_2.index t (0 : Fin 2) = win1_3.index t (0 : Fin 2) ∧ win1_2.index t (1 : Fin 2) = 0
    ∧ win1_3.index t (1 : Fin 2) = 0 ∧ win1_3.index t (0 : Fin 2) = t.val :=
  (by decide +kernel : ∀ t : Fin grid1.N, _)

/-- What point t writes back is block t of the expression of the three arrays the region found. -/
theorem comb_flushed (c : Dev nD) (t : Fin cfg1.N) :
    (dat1 V c).flushed 3 t = ((cfg1.win 3).blk t).view.read (Elt Ideal) (normAdd (V c main_v13) (V c main_arg3) (V c main_v3)) := by
  show (cfg1.win 3).cut (grid1.coords t) ((dat1 V c).after 3 t) = _
  rw [after1_3]
  unfold out1_3
  rw [View.canon_unit_zero hz']
  simp only [View.ld_unit_zero (S := S5000x64) hz', View.ld_unit_zero (S := S5000x1) hz']
  obtain ⟨e0, e1, e2, e3, e4, e5, e6, e7⟩ := comb_index t
  funext j
  obtain ⟨p, q, rfl⟩ : ∃ (p : Fin 5000) (q : Fin 64), j = ix2 p q :=
    ⟨⟨(j 0).val, (j 0).isLt⟩, ⟨(j 1).val, (j 1).isLt⟩, funext fun a => by match a with | ⟨0, _⟩ => rfl | ⟨1, _⟩ => rfl⟩
  show k1_pay1 (F := Ideal) (iblk1 V c 0 t) (iblk1 V c 1 t) (iblk1 V c 2 t) (ix2 p q)
    = normAdd (V c main_v13) (V c main_arg3) (V c main_v3) (((cfg1.win 3).blk t).view.emb (ix2 p q))
  refine (comb_apply (iblk1 V c 0 t) (iblk1 V c 1 t) (iblk1 V c 2 t) p q).trans ?_
  unfold normAdd
  show Ideal.div ((V c main_v13 : S100000x64.Idx → EReal) (((cfg1.win 0).blk t).view.emb (ix2 p q)))
        ((V c main_arg3 : S100000x1.Idx → EReal) (((cfg1.win 1).blk t).view.emb (ix2 p (0 : Fin 1))))
      + (V c main_v3 : S100000x64.Idx → EReal) (((cfg1.win 2).blk t).view.emb (ix2 p q)) = _
  have h0 : ((cfg1.win 0).blk t).view.emb (ix2 p q) = ((cfg1.win 3).blk t).view.emb (ix2 p q) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * q.val = win1_3.index t (1 : Fin 2) * 64 + 1 * q.val; omega
  have h1 : ((cfg1.win 1).blk t).view.emb (ix2 p (0 : Fin 1))
      = ix2 (⟨((((cfg1.win 3).blk t).view.emb (ix2 p q)) 0).val, idx2_lt0 _⟩ : Fin 100000) (0 : Fin 1) := by
    funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 1 + 1 * 0 = 0; omega
  have h2 : ((cfg1.win 2).blk t).view.emb (ix2 p q) = ((cfg1.win 3).blk t).view.emb (ix2 p q) := by
    funext a; apply Fin.ext
    match a with
    | ⟨0, _⟩ => show win1_2.index t (0 : Fin 2) * 5000 + 1 * p.val = win1_3.index t (0 : Fin 2) * 5000 + 1 * p.val; omega
    | ⟨1, _⟩ => show win1_2.index t (1 : Fin 2) * 64 + 1 * q.val = win1_3.index t (1 : Fin 2) * 64 + 1 * q.val; omega
  rw [h0, h1, h2]

/-- An entry is in point t's row block iff each coordinate is in the block's range on its axis. -/
theorem comb_mem (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v14).slice (win1_3.rect t)).set ↔ _
  rw [View.set_slice_whole, Rect.mem_set_unit]
  exact Iff.rfl

/-- Every entry of the 100000 × 64 array lies in the row block of the point its row falls in. -/
theorem comb_cover (i : S100000x64.Idx) :
    ∃ t : Fin cfg1.N, (cfg1.win 3).flush t = true ∧ i ∈ ((cfg1.win 3).blk t).view.set := by
  have hi0 : (i 0).val < 100000 := idx2_lt0 i
  have hi1 : (i 1).val < 64 := idx2_lt1 i
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4, e5, e6, e7⟩ := comb_index t
  refine ⟨t, flush1_3 t, ?_⟩
  rw [comb_mem]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- After the region the result array holds the expression of the three arrays the region found. -/
theorem comb_final (c : Dev nD) :
    (dat1 V c).arrAt 3 cfg1.N = normAdd (V c main_v13) (V c main_arg3) (V c main_v3) :=
  (dat1 V c).arrAt_eq_of_cover 3 (normAdd (V c main_v13) (V c main_arg3) (V c main_v3)) (fun t _ => comb_flushed V c t) comb_cover

end Cert.KernelIdeal.Hand

end
-- ==== Proof.Fold.lean ====
/-
  The contents each on-chip region is entered with, read back to the launch arrays, and so the result array as one
  expression of the six arguments. The first region finds the left matrix as launched and the two weight matrices
  joined side by side; it leaves their product. The host stretch after it cuts the product's left and right 64
  columns out, gathers rows of the left half through the column ids (a negative id counted from the end), and sums
  the gathered rows into the rows the row ids name, starting from zero. The second region finds that aggregate, the
  degree column as launched and the right half, and leaves the aggregate divided by the degree plus the right half.
-/
import proofs.«104487_j66907000537770_2_alg».proof.Defs
import proofs.«104487_j66907000537770_2_alg».proof.Proof.Gen.KernelIdeal.Frame
import proofs.«104487_j66907000537770_2_alg».proof.Proof.Gemm
import proofs.«104487_j66907000537770_2_alg».proof.Proof.Combine
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

/-- Two 64 × 64 matrices side by side: a 64 × 128 matrix. -/
def joined (W W1 : S64x64.Idx → EReal) : S64x128.Idx → EReal :=
  concatenate S64x128 1 [⟨S64x64, W⟩, ⟨S64x64, W1⟩] concatenates_S64x64_S64x64_S64x128_d1

/-- The left 64 columns of a 100000 × 128 array. -/
def leftHalf (Y : S100000x128.Idx → EReal) : S100000x64.Idx → EReal :=
  extractStridedSlice S100000x64 ![0, 0] Y slices_S100000x128_S100000x64_0_0

/-- The right 64 columns of a 100000 × 128 array. -/
def rightHalf (Y : S100000x128.Idx → EReal) : S100000x64.Idx → EReal :=
  extractStridedSlice S100000x64 ![0, 64] Y slices_S100000x128_S100000x64_0_64

/-- Rows of `XW` gathered through the column ids (a negative id shifted by the row count), summed into the rows the
    row ids name, from the zero array. -/
def aggregate (XW : S100000x64.Idx → EReal) (row col : IVec S1600000 32) : S100000x64.Idx → EReal :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 row)
    (Host.gather gather_S100000x64_S1600000x1_S1600000x64_1_0_n_n_0_1_164 XW
      (broadcastInDim S1600000x1 ![0] bcast_S1600000_S1600000x1_0
        (select (cmpi .slt col (broadcastInDim S1600000 ![] bcast_S_S1600000 (constantI S_ 32 0#32)))
          (addi col (broadcastInDim S1600000 ![] bcast_S_S1600000 (constantI S_ 32 100000#32))) col)))

variable (m : (ℓ : Loc nD τ sig) → Buf (Elt Ideal) ℓ) (ρ : Dev nD → PrngReg)

/-- The first region finds the left matrix as launched … -/
theorem gemm_finds_x (c : Dev nD) : V1 m ρ c main_arg0 = m ((c : Thread nD τ).loc main_arg0) := by
  show StableHlo.after hostOps0 (W0 m ρ c) (Proc.devRef .tc main_arg0) = _
  after_results

/-- … and the two weight matrices joined. -/
theorem gemm_finds_w (c : Dev nD) :
    V1 m ρ c main_v0 = joined (m ((c : Thread nD τ).loc main_arg1)) (m ((c : Thread nD τ).loc main_arg2)) := by
  show StableHlo.after hostOps0 (W0 m ρ c) (Proc.devRef .tc main_v0) = _
  after_results
  rfl

/-- After the first region the product array holds the left matrix times the joined weights. -/
theorem product_after (c : Dev nD) :
    W2 m ρ c (Proc.devRef .tc main_v1)
      = rowsTimes (m ((c : Thread nD τ).loc main_arg0)) (joined (m ((c : Thread nD τ).loc main_arg1)) (m ((c : Thread nD τ).loc main_arg2))) :=
  (W2_arr m ρ c 2).trans ((gemm_final (V1 m ρ) c).trans (by rw [gemm_finds_x, gemm_finds_w]))

/-- The first region leaves the degree column and the two id arrays as launched. -/
theorem degree_after (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem rows_after (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem cols_after (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

/-- The second region finds the aggregate of the product's left half … -/
theorem comb_finds_agg (c : Dev nD) :
    V3 m ρ c main_v13 = aggregate (leftHalf (W2 m ρ c (Proc.devRef .tc main_v1)))
      (W2 m ρ c (Proc.devRef .tc main_arg4)) (W2 m ρ c (Proc.devRef .tc main_arg5)) := by
  show StableHlo.after hostOps1 (W2 m ρ c) (Proc.devRef .tc main_v13) = _
  after_results
  rfl

/-- … the degree column as the first region left it … -/
theorem comb_finds_deg (c : Dev nD) : V3 m ρ c main_arg3 = W2 m ρ c (Proc.devRef .tc main_arg3) := by
  show StableHlo.after hostOps1 (W2 m ρ c) (Proc.devRef .tc main_arg3) = _
  after_results

/-- … and the product's right half. -/
theorem comb_finds_res (c : Dev nD) : V3 m ρ c main_v3 = rightHalf (W2 m ρ c (Proc.devRef .tc main_v1)) := by
  show StableHlo.after hostOps1 (W2 m ρ c) (Proc.devRef .tc main_v3) = _
  after_results
  rfl

/-- The fused program's result as one expression of the arguments. -/
def fused (X : S100000x64.Idx → EReal) (W W1 : S64x64.Idx → EReal) (D : S100000x1.Idx → EReal) (row col : IVec S1600000 32) :
    S100000x64.Idx → EReal :=
  normAdd (aggregate (leftHalf (rowsTimes X (joined W W1))) row col) D (rightHalf (rowsTimes X (joined W W1)))

/-- At the last boundary the result array holds that expression of the launch arrays. -/
theorem result_last (c : Dev nD) :
    W4 m ρ c (Proc.devRef .tc main_v14)
      = fused (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (W4_arr m ρ c 3).trans ((comb_final (V3 m ρ) c).trans (by
    rw [comb_finds_agg, comb_finds_deg, comb_finds_res, product_after, degree_after, rows_after, cols_after]
    rfl))

end Cert.KernelIdeal.Hand

end
-- ==== Proof.Bridge.lean ====
/-
  The fused program's expression of the arguments is the reference's. The only place the two differ is where the
  matrix products come from: the fused program multiplies the left matrix once by the two weight matrices joined
  side by side and cuts the product in two, the reference multiplies it by each weight matrix separately. Entry
  (r, c) of the joined product's left half is the sum over k of X (r, k) times the joined weights at (k, c), which
  is W (k, c); entry (r, c) of its right half reads the joined weights at (k, 64 + c), which is W1 (k, c). So the
  halves are X · W and X · W1, sums over the same 64 indices in the same order. Everything after that — the gather
  through the column ids, the sum into the rows the row ids name, the division by the degree and the addition of
  the residual — is the same operation applied to equal arrays.
-/
import proofs.«104487_j66907000537770_2_alg».proof.Defs
import proofs.«104487_j66907000537770_2_alg».proof.Proof.Fold
import proofs.«104487_j66907000537770_2_alg».proof.Proof.LibPlainDot
import proofs.«104487_j66907000537770_2_alg».proof.Proof.Gen.ReferenceIdeal.Read
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx

variable (X : S100000x64.Idx → EReal) (W W1 : S64x64.Idx → EReal) (D : S100000x1.Idx → EReal) (row col : IVec S1600000 32)

/-- The joined weights at a column of the left matrix. -/
theorem joined_left (k c : Fin 64) (hc : c.val < 128) : joined W W1 (ix2 k (⟨c.val, hc⟩ : Fin 128)) = W (ix2 k c) := by
  unfold joined
  exact concatenate_pair_apply_left (1 : Fin 2) W W1 concatenates_S64x64_S64x64_S64x128_d1 (ix2 k (⟨c.val, hc⟩ : Fin 128)) rfl (ix2 k c)
    (fun b => by match b with | ⟨0, _⟩ => rfl | ⟨1, _⟩ => rfl)

/-- The joined weights at a column of the right matrix. -/
theorem joined_right (k c : Fin 64) (hc : 64 + c.val < 128) : joined W W1 (ix2 k (⟨64 + c.val, hc⟩ : Fin 128)) = W1 (ix2 k c) := by
  unfold joined
  exact concatenate_pair_apply_right (1 : Fin 2) W W1 concatenates_S64x64_S64x64_S64x128_d1 (ix2 k (⟨64 + c.val, hc⟩ : Fin 128)) rfl rfl (ix2 k c)
    (fun b hb => by match b with | ⟨0, _⟩ => rfl | ⟨1, _⟩ => exact absurd rfl hb)
    (by show c.val + 64 = 64 + c.val; omega)

/-- The left half of the joined product is the left matrix times the first weight matrix. -/
theorem left_is_xw : leftHalf (rowsTimes X (joined W W1)) = Cert.ReferenceIdeal.Read.val_main_v0 (F := Ideal) X W := by
  funext i
  obtain ⟨r, c, rfl⟩ : ∃ (r : Fin 100000) (c : Fin 64), i = ix2 r c :=
    ⟨⟨(i 0).val, idx2_lt0 i⟩, ⟨(i 1).val, idx2_lt1 i⟩, funext fun a => by match a with | ⟨0, _⟩ => rfl | ⟨1, _⟩ => rfl⟩
  have hc : c.val < 128 := by have := c.isLt; omega
  unfold leftHalf
  refine (extractStridedSlice_apply ![0, 0] _ slices_S100000x128_S100000x64_0_0 (ix2 r c) (ix2 r (⟨c.val, hc⟩ : Fin 128)) (fun a => by
    match a with
    | ⟨0, _⟩ => show r.val = 0 + r.val; omega
    | ⟨1, _⟩ => show c.val = 0 + c.val; omega)).trans ?_
  show ∑ k : Fin 64, X (ix2 r k) * joined W W1 (ix2 k (⟨c.val, hc⟩ : Fin 128)) = _
  simp only [joined_left]
  unfold Cert.ReferenceIdeal.Read.val_main_v0
  simp only [Host.dotGeneral]
  exact (Cert.PlainDot.dotGeneral_apply (M := 100000) (K := 64) (N := 64)
    Cert.ReferenceIdeal.dot_S100000x64_S64x64_S100000x64_1_0_0_1_n_n rfl none _ X W r c).symm

/-- The right half of the joined product is the left matrix times the second weight matrix. -/
theorem right_is_xw1 : rightHalf (rowsTimes X (joined W W1)) = Cert.ReferenceIdeal.Read.val_main_v13 (F := Ideal) X W1 := by
  funext i
  obtain ⟨r, c, rfl⟩ : ∃ (r : Fin 100000) (c : Fin 64), i = ix2 r c :=
    ⟨⟨(i 0).val, idx2_lt0 i⟩, ⟨(i 1).val, idx2_lt1 i⟩, funext fun a => by match a with | ⟨0, _⟩ => rfl | ⟨1, _⟩ => rfl⟩
  have hc : 64 + c.val < 128 := by have := c.isLt; omega
  unfold rightHalf
  refine (extractStridedSlice_apply ![0, 64] _ slices_S100000x128_S100000x64_0_64 (ix2 r c) (ix2 r (⟨64 + c.val, hc⟩ : Fin 128)) (fun a => by
    match a with
    | ⟨0, _⟩ => show r.val = 0 + r.val; omega
    | ⟨1, _⟩ => show 64 + c.val = 64 + c.val; rfl)).trans ?_
  show ∑ k : Fin 64, X (ix2 r k) * joined W W1 (ix2 k (⟨64 + c.val, hc⟩ : Fin 128)) = _
  simp only [joined_right]
  unfold Cert.ReferenceIdeal.Read.val_main_v13
  simp only [Host.dotGeneral]
  exact (Cert.PlainDot.dotGeneral_apply (M := 100000) (K := 64) (N := 64)
    Cert.ReferenceIdeal.dot_S100000x64_S64x64_S100000x64_1_0_0_1_n_n rfl none _ X W1 r c).symm

/-- The gather and the segment sum are the reference's, on the same ids. -/
theorem aggregate_is (XW : S100000x64.Idx → EReal) :
    aggregate XW row col
      = Host.scatterAdd (F := Ideal) (φ := .f32) Cert.ReferenceIdeal.scatter_S100000x64_S1600000x1_S1600000x64_1_0_0_1
          (Cert.ReferenceIdeal.Read.val_main_v8 (F := Ideal)) (Cert.ReferenceIdeal.Read.val_main_v9 (F := Ideal) row)
          (Host.gather Cert.ReferenceIdeal.gather_S100000x64_S1600000x1_S1600000x64_1_0_n_n_0_1_164 XW
            (Cert.ReferenceIdeal.Read.val_main_v6 (F := Ideal) col)) := rfl

/-- The fused program's expression of the arguments is the reference's last stage. -/
theorem fused_is_reference :
    fused X W W1 D row col = Cert.ReferenceIdeal.Read.val_main_v14 (F := Ideal) X W W1 D row col := by
  funext i
  unfold fused normAdd
  rw [left_is_xw, right_is_xw1, aggregate_is]
  rw [Cert.ReferenceIdeal.Read.val_main_v14_apply, Cert.ReferenceIdeal.Read.val_main_v12_apply,
    Cert.ReferenceIdeal.Read.val_main_v11_apply, Ideal.addf_def, Ideal.hostDivf_def]
  have hi : Cert.ReferenceIdeal.Read.idx_main_v11 i = ix2 (⟨(i 0).val, idx2_lt0 i⟩ : Fin 100000) (0 : Fin 1) :=
    funext fun a => by match a with | ⟨0, _⟩ => rfl | ⟨1, _⟩ => rfl
  rw [hi]
  rfl

end Cert.KernelIdeal.Hand

end
-- ==== Proof.lean ====
/-
  The certificate: a graph layer out = segment_sum((X·W)[col], row) / deg + X·W1, computed by a fused program (one
  on-chip product of X with W and W1 joined side by side, its two column halves cut out on the host, the gather and
  the segment sum on the host, one on-chip pass that divides by the degree column and adds the residual half)
  against the plain formula.
  The three frames: the fused program's two are the generated ones (both regions load and store whole row blocks);
  the plain formula's is its generated run with the result dropped. The idealization rewrote no operation, so there
  is nothing to preserve. The value claim: over the extended reals the fused program's result array ends at one
  expression of the six arguments (the run with the result named; the two regions read as values; the host
  stretches between them read back to the launch arrays), the plain formula's at its last stage, and the two are
  the same function: the halves of X times the joined weights are X·W and X·W1, sums over the same 64 indices, and
  every later step is the same operation on equal arrays. No finiteness of the inputs is used: only that a sum over
  the same index set in the same order is the same sum.
-/
import proofs.«104487_j66907000537770_2_alg».proof.Defs
import proofs.«104487_j66907000537770_2_alg».proof.Proof.Gen.Kernel
import proofs.«104487_j66907000537770_2_alg».proof.Proof.Gen.Kernel.Skeleton
import proofs.«104487_j66907000537770_2_alg».proof.Proof.Gen.Kernel.Launch
import proofs.«104487_j66907000537770_2_alg».proof.Proof.Gen.Kernel.Points
import proofs.«104487_j66907000537770_2_alg».proof.Proof.Gen.Kernel.Frame
import proofs.«104487_j66907000537770_2_alg».proof.Proof.Gen.KernelIdeal
import proofs.«104487_j66907000537770_2_alg».proof.Proof.Gen.KernelIdeal.Skeleton
import proofs.«104487_j66907000537770_2_alg».proof.Proof.Gen.KernelIdeal.Launch
import proofs.«104487_j66907000537770_2_alg».proof.Proof.Gen.KernelIdeal.Points
import proofs.«104487_j66907000537770_2_alg».proof.Proof.Gen.KernelIdeal.Frame
import proofs.«104487_j66907000537770_2_alg».proof.Proof.Gen.ReferenceIdeal
import proofs.«104487_j66907000537770_2_alg».proof.Proof.Gen.ReferenceIdeal.Run
import proofs.«104487_j66907000537770_2_alg».proof.Proof.Gen.ReferenceIdeal.Read
import proofs.«104487_j66907000537770_2_alg».proof.Proof.Gen.Pre_finite_inputs
import proofs.«104487_j66907000537770_2_alg».proof.Proof.KernelRun
import proofs.«104487_j66907000537770_2_alg».proof.Proof.Fold
import proofs.«104487_j66907000537770_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the six arguments, end with the result array at the fused
    expression of those arguments. -/
theorem algebraic : Cert.algebraic_KernelIdeal_ReferenceIdeal := by
  intro m ρ m' ρ' _ hagree
  refine ⟨fun c => Cert.KernelIdeal.Hand.fused
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.result_last m ρ c), (h c).2⟩)
      (Cert.KernelIdeal.Hand.run_last (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, (hagree c).1, (hagree c).2.1, (hagree c).2.2.1, (hagree c).2.2.2.1,
      (hagree c).2.2.2.2.1, (hagree c).2.2.2.2.2]
    exact (Cert.KernelIdeal.Hand.fused_is_reference _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
